-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192 : Shape := ⟨2, ![2048, 8192]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  main_v38

def fn_part1 {F : FTy → Type} [FloatOps F] (main_arg4 : FVec F S2048x8192 .f32) (main_arg5 : FVec F S2048x8192 .f32) (main_arg6 : FVec F S2048x8192 .f32) (main_arg7 : FVec F S8192 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S2048x8192 .f32 := Host.absf main_arg5
  let main_cst_8 : FVec F S_ .f32 := constant S_ .f32 0x7F800000#32
  let main_v25 : FVec F S2048x8192 .f32 := broadcastInDim S2048x8192 ![] bcast_S_S2048x8192 main_cst_8
  let main_v26 : IVec S2048x8192 1 := cmpf .olt main_v24 main_v25
  let main_c_9 : IVec S_ 1 := constantI S_ 1 1#1
  let main_v27 : IVec S_ 1 := (fun x v => Host.reduce IntOp.andi x v reducesTo_S2048x8192_S_d0_1 h_S_) main_v26 main_c_9
  let main_v28 : IVec S_ 1 := andi main_v23 main_v27
  let main_v29 : FVec F S2048x8192 .f32 := Host.absf main_arg6
  let main_cst_10 : FVec F S_ .f32 := constant S_ .f32 0x7F800000#32
  let main_v30 : FVec F S2048x8192 .f32 := broadcastInDim S2048x8192 ![] bcast_S_S2048x8192 main_cst_10
  let main_v31 : IVec S2048x8192 1 := cmpf .olt main_v29 main_v30
  let main_c_11 : IVec S_ 1 := constantI S_ 1 1#1
  let main_v32 : IVec S_ 1 := (fun x v => Host.reduce IntOp.andi x v reducesTo_S2048x8192_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S2048x8192 .f32) (main_arg5 : FVec F S2048x8192 .f32) (main_arg6 : FVec F S2048x8192 .f32) (main_arg7 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S2048x8192 : Shape := ⟨2, ![2048, 8192]⟩
abbrev S8192 : Shape := ⟨1, ![8192]⟩
abbrev S2048x4x2048 : Shape := ⟨3, ![2048, 4, 2048]⟩
abbrev S4x2048 : Shape := ⟨2, ![4, 2048]⟩
abbrev S1024x2048 : Shape := ⟨2, ![1024, 2048]⟩
abbrev S1024x128 : Shape := ⟨2, ![1024, 128]⟩
abbrev S2048x4x128 : Shape := ⟨3, ![2048, 4, 128]⟩
abbrev S4x128 : Shape := ⟨2, ![4, 128]⟩
abbrev S2048x1x128 : Shape := ⟨3, ![2048, 1, 128]⟩
abbrev S2048x128 : Shape := ⟨2, ![2048, 128]⟩
abbrev S1x128 : Shape := ⟨2, ![1, 128]⟩
abbrev S128 : Shape := ⟨1, ![128]⟩

abbrev nBuf : Space → Nat
  | .hbm => 19
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S8192, .f32⟩
  | .hbm, ⟨8, _⟩ => ⟨S4096x2048, .bf16⟩
  | .hbm, ⟨9, _⟩ => ⟨S4096x2048, .bf16⟩
  | .hbm, ⟨10, _⟩ => ⟨S4096x2048, .bf16⟩
  | .hbm, ⟨11, _⟩ => ⟨S2048x8192, .bf16⟩
  | .hbm, ⟨12, _⟩ => ⟨S2048x4x2048, .bf16⟩
  | .hbm, ⟨13, _⟩ => ⟨S2048x8192, .bf16⟩
  | .hbm, ⟨14, _⟩ => ⟨S2048x4x2048, .bf16⟩
  | .hbm, ⟨15, _⟩ => ⟨S2048x8192, .bf16⟩
  | .hbm, ⟨16, _⟩ => ⟨S2048x4x2048, .bf16⟩
  | .hbm, ⟨17, _⟩ => ⟨S4x2048, .f32⟩
  | .hbm, ⟨18, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x128, .f32⟩
  | .local _ .vmem, ⟨7, _⟩ => ⟨S1024x128, .f32⟩
  | .local _ .vmem, ⟨8, _⟩ => ⟨S2048x4x128, .bf16⟩
  | .local _ .vmem, ⟨9, _⟩ => ⟨S2048x4x128, .bf16⟩
  | .local _ .vmem, ⟨10, _⟩ => ⟨S2048x4x128, .bf16⟩
  | .local _ .vmem, ⟨11, _⟩ => ⟨S2048x4x128, .bf16⟩
  | .local _ .vmem, ⟨12, _⟩ => ⟨S2048x4x128, .bf16⟩
  | .local _ .vmem, ⟨13, _⟩ => ⟨S2048x4x128, .bf16⟩
  | .local _ .vmem, ⟨14, _⟩ => ⟨S4x128, .f32⟩
  | .local _ .vmem, ⟨15, _⟩ => ⟨S4x128, .f32⟩
  | .local _ .vmem, ⟨16, _⟩ => ⟨S1024x128, .f32⟩
  | .local _ .vmem, ⟨17, _⟩ => ⟨S1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x4x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x4x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x4x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  shapeCasts_S2048x8192_S2048x4x2048 : S2048x8192.ShapeCasts S2048x4x2048
  shapeCasts_S8192_S4x2048 : S8192.ShapeCasts S4x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x4x128_S2048x1x128_0_0_0 : ∀ a, (![0, 0, 0] : Fin 3 → Nat) a + S2048x1x128.size a ≤ S2048x4x128.size a
  h_S2048x1x128 : 0 < S2048x1x128.numel
  shapeCasts_S2048x1x128_S2048x128 : S2048x1x128.ShapeCasts S2048x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S1024x128 : S1x128.Broadcasts S1024x128
  inb_S2048x4x128_S2048x1x128_0_1_0 : ∀ a, (![0, 1, 0] : Fin 3 → Nat) a + S2048x1x128.size a ≤ S2048x4x128.size a
  inb_S4x128_S1x128_1_0 : ∀ a, (![1, 0] : Fin 2 → Nat) a + S1x128.size a ≤ S4x128.size a
  inb_S2048x4x128_S2048x1x128_0_2_0 : ∀ a, (![0, 2, 0] : Fin 3 → Nat) a + S2048x1x128.size a ≤ S2048x4x128.size a
  inb_S4x128_S1x128_2_0 : ∀ a, (![2, 0] : Fin 2 → Nat) a + S1x128.size a ≤ S4x128.size a
  inb_S2048x4x128_S2048x1x128_0_3_0 : ∀ a, (![0, 3, 0] : Fin 3 → Nat) a + S2048x1x128.size a ≤ S2048x4x128.size a
  inb_S4x128_S1x128_3_0 : ∀ a, (![3, 0] : Fin 2 → Nat) a + S1x128.size a ≤ S4x128.size a
  inb_S1024x128_S1024x128_0_0 : ∀ a, (![0, 0] : Fin 2 → Nat) a + S1024x128.size a ≤ S1024x128.size a
  h_S1024x128 : 0 < S1024x128.numel
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .bf16 = 32 ∨ (Rect.block (s := S4096x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x2048.size a
  hwx0_2 : ∀ i : grid0.Coords, EltTy.bits .bf16 = 32 ∨ (Rect.block (s := S4096x2048) S1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x2048.size a
  hwx0_3 : ∀ i : grid0.Coords, EltTy.bits .f32 = 32 ∨ (Rect.block (s := S4096x2048) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x4x128.size a ≤ S2048x4x2048.size a
  hwx0_4 : ∀ i : grid0.Coords, EltTy.bits .bf16 = 32 ∨ (Rect.block (s := S2048x4x2048) S2048x4x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x4x128.size a ≤ S2048x4x2048.size a
  hwx0_5 : ∀ i : grid0.Coords, EltTy.bits .bf16 = 32 ∨ (Rect.block (s := S2048x4x2048) S2048x4x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x4x128.size a ≤ S2048x4x2048.size a
  hwx0_6 : ∀ i : grid0.Coords, EltTy.bits .bf16 = 32 ∨ (Rect.block (s := S2048x4x2048) S2048x4x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x128.size a ≤ S4x2048.size a
  hwx0_7 : ∀ i : grid0.Coords, EltTy.bits .f32 = 32 ∨ (Rect.block (s := S4x2048) S4x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S4096x2048.size a
  hwx0_8 : ∀ i : grid0.Coords, EltTy.bits .f32 = 32 ∨ (Rect.block (s := S4096x2048) S1024x128.size (cc0_transform_8 i) (hinb0_8 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x4x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x4x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2048x4x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_v27 : Ref sig .tc := ⟨.hbm, 54, rfl⟩
abbrev main_cst_8 : Ref sig .tc := ⟨.hbm, 55, rfl⟩
abbrev main_v28 : Ref sig .tc := ⟨.hbm, 56, rfl⟩
abbrev main_v29 : Ref sig .tc := ⟨.hbm, 57, rfl⟩
abbrev main_cst_9 : Ref sig .tc := ⟨.hbm, 58, rfl⟩
abbrev main_cst_10 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.CellSpec.lean ====
/-
  The recurrent cell both programs compute, as one function of the eight argument arrays, entry by entry, on the
  extended reals.

  With x, h, z the three activation arrays (4096 rows, 2048 columns), K, R, L the three weight arrays (2048 rows,
  8192 columns: four gates of 2048 columns side by side), bias a vector of 8192 entries and c the previous cell
  state, the pre-activation of gate g at row b and unit n is

      a_g(b, n) = ((Σ_k x(b,k)·K(k, 2048g+n) + Σ_k h(b,k)·R(k, 2048g+n)) + Σ_k z(b,k)·L(k, 2048g+n)) + bias(2048g+n),

  the hard sigmoid is σ(y) = min 1 (max 0 (0.2·y + 0.5)), and the result is

      σ(a_3) · tanh (σ(a_1) · c(b,n) + σ(a_0) · tanh a_2).

  The three constants 0.2, 0.5, 1 and the zero are kept as the f32 words both programs spell them with; none of them
  is ever evaluated.
-/
import Idealize.ShloMosaic.PureOps.Ideal
import Idealize.ShloMosaic.Lib.ValueIdx

noncomputable section

namespace Cert.Cell

open Idealize.ShloMosaic Idealize.ShloMosaic.ValueIdx

/-- The hard sigmoid `min 1 (max 0 (0.2·y + 0.5))`. -/
def hardSig (y : EReal) : EReal :=
  min (Ideal.ofBits .f32 0x3F800000#32)
    (max (Ideal.ofBits .f32 0x00000000#32) (Ideal.ofBits .f32 0x3E4CCCCD#32 * y + Ideal.ofBits .f32 0x3F000000#32))

/-- One step of the cell from the four gate pre-activations (input, forget, candidate, output) and the previous
    cell state: `σ(ao) · tanh (σ(af) · c + σ(ai) · tanh ac)`. -/
def step (ai af ac ao cprev : EReal) : EReal :=
  hardSig ao * Ideal.tanh (hardSig af * cprev + hardSig ai * Ideal.tanh ac)

/-- `step` respects equality of each of its five arguments. -/
theorem step_congr {ai af ac ao cp ai' af' ac' ao' cp' : EReal} (hi : ai = ai') (hf : af = af') (hc : ac = ac')
    (ho : ao = ao') (hp : cp = cp') : step ai af ac ao cp = step ai' af' ac' ao' cp' := by
  subst hi hf hc ho hp; rfl

/-- An activation array, a weight array, the bias vector. -/
abbrev Act : Type := (⟨2, ![4096, 2048]⟩ : Shape).Idx → EReal
abbrev Wt : Type := (⟨2, ![2048, 8192]⟩ : Shape).Idx → EReal
abbrev Bias : Type := (⟨1, ![8192]⟩ : Shape).Idx → EReal

/-- Column `2048·g + n` of the fused gate axis: unit `n` of gate `g`. -/
def gateCol (g : Fin 4) (n : Fin 2048) : Fin 8192 :=
  ⟨g.val * 2048 + n.val, by have := g.isLt; have := n.isLt; omega⟩

theorem gateCol_val (g : Fin 4) (n : Fin 2048) : (gateCol g n).val = g.val * 2048 + n.val := rfl

/-- The pre-activation at row `b` and fused column `col`: the three products summed in the order
    `(x·K + h·R) + z·L`, then the bias. -/
def gatePre (x h z : Act) (K R L : Wt) (bias : Bias) (b : Fin 4096) (col : Fin 8192) : EReal :=
  ((∑ k : Fin 2048, x (ix2 b k) * K (ix2 k col)) + (∑ k : Fin 2048, h (ix2 b k) * R (ix2 k col))
    + ∑ k : Fin 2048, z (ix2 b k) * L (ix2 k col)) + bias (ix1 col)

/-- The new hidden state at row `b`, unit `n`. -/
def cellAt (x h c z : Act) (K R L : Wt) (bias : Bias) (b : Fin 4096) (n : Fin 2048) : EReal :=
  step (gatePre x h z K R L bias b (gateCol 0 n)) (gatePre x h z K R L bias b (gateCol 1 n))
    (gatePre x h z K R L bias b (gateCol 2 n)) (gatePre x h z K R L bias b (gateCol 3 n)) (c (ix2 b n))

/-- The new hidden state as an array. -/
def cell (x h c z : Act) (K R L : Wt) (bias : Bias) : Act := fun i => cellAt x h c z K R L bias (i 0) (i 1)

theorem cell_ix2 (x h c z : Act) (K R L : Wt) (bias : Bias) (b : Fin 4096) (n : Fin 2048) :
    cell x h c z K R L bias (ix2 b n) = cellAt x h c z K R L bias b n := rfl

end Cert.Cell

end
-- ==== Proof.KernelBody.lean ====
/-
  One grid point of the kernel, read entry by entry.

  At a grid point the body holds a block of 1024 rows of each activation array (all 2048 columns), the 2048 × 4 × 128
  block of each weight array (all rows, all four gates, 128 units), the 4 × 128 block of the bias and the 1024 × 128
  block of the previous cell state. For each gate g it multiplies the three activation blocks with gate g's 2048 × 128
  slab of the three weight blocks into a zero accumulator, adds the three products in the order (x·K + h·R) + z·L,
  and adds row g of the bias block to every row. Each product read at (p, q) is the sum over k of the row entry times
  the slab entry; so gate g's pre-activation at (p, q) is

      ((Σ_k x(p,k)·K(k,g,q) + Σ_k h(p,k)·R(k,g,q)) + Σ_k z(p,k)·L(k,g,q)) + bias(g,q)         (`blockPre`),

  and what the body stores at (p, q) is the cell step of the four pre-activations and the cell-state block's entry
  (`out_ix2`). Nothing here depends on the grid point: the blocks are variables.
-/
import proofs.«114880_j79594333929637_2_alg».proof.Proof.Gen.KernelIdeal.Frame
import proofs.«114880_j79594333929637_2_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.TcCoe

/-- The body's one contraction: rows × columns of [1024, 2048] against [2048, 128], no batch axis. -/
abbrev D := dot_S1024x2048_S2048x128_S1024x128_1_0_0_1_n_n

/-! ## The contraction's operand indices, coordinate by coordinate -/

theorem lhs0 (i : S1024x128.Idx) (q : D.contr.Idx) : (D.lhsIdx i q 0).val = (i 0).val := by
  unfold DotDims.lhsIdx
  rw [dif_neg (show ¬(0 : Fin S1024x2048.rank) ∈ D.lhsBatch by decide), dif_pos (show (0 : Fin S1024x2048.rank) ∈ D.lhsNonContracting by decide)]
  rfl
theorem lhs1 (i : S1024x128.Idx) (q : D.contr.Idx) : (D.lhsIdx i q 1).val = (q ⟨0, by decide⟩).val :=
  D.lhsIdx_val_of_single rfl i q
theorem rhs0 (i : S1024x128.Idx) (q : D.contr.Idx) : (D.rhsIdx i q 0).val = (q ⟨0, by decide⟩).val :=
  D.rhsIdx_val_of_single rfl i q
theorem rhs1 (i : S1024x128.Idx) (q : D.contr.Idx) : (D.rhsIdx i q 1).val = (i 1).val := by
  unfold DotDims.rhsIdx
  rw [dif_neg (show ¬(1 : Fin S2048x128.rank) ∈ D.rhsBatch by decide), dif_pos (show (1 : Fin S2048x128.rank) ∈ D.rhsNonContracting by decide)]
  rfl

/-- A product into the zero accumulator, read at `(p, q)`: the sum over `k` of row `p` times column `q`. -/
theorem matmul_ix2 (lhs : FVec Ideal S1024x2048 .bf16) (rhs : FVec Ideal S2048x128 .bf16) (p : Fin 1024) (q : Fin 128) :
    matmul D none lhs rhs (constant S1024x128 .f32 0x00000000#32) (ix2 p q)
      = ∑ k : Fin 2048, lhs (ix2 p k) * rhs (ix2 k q) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 2048 rfl rfl).symm k) = ix2 k q := funext fun a => Fin.ext (by
    match a with
    | ⟨0, _⟩ => exact (rhs0 _ _).trans hk
    | ⟨1, _⟩ => exact rhs1 _ _)
  rw [el, er]

/-- A gate's slab `[2048, 1, 128]` viewed `[2048, 128]` reads `(k, q)` at `(k, 0, q)`. -/
theorem slab_ix2 (w : FVec Ideal S2048x1x128 .bf16) (k : Fin 2048) (q : Fin 128) :
    shapeCast S2048x128 w shapeCasts_S2048x1x128_S2048x128 (ix2 k q) = w (ix3 k (0 : Fin 1) q) := by
  refine shapeCast_apply w shapeCasts_S2048x1x128_S2048x128 (ix2 k q) (ix3 k (0 : Fin 1) q) ?_
  rw [Shape.rowMajor_val_three, Shape.rowMajor_val_two]
  show (k.val * 1 + 0) * 128 + q.val = k.val * 128 + q.val
  omega

/-- A bias row `[1, 128]` flattened, restored and broadcast down 1024 rows reads `(p, q)` at `(0, q)`. -/
theorem bias_ix2 (v : FVec Ideal S1x128 .f32) (p : Fin 1024) (q : Fin 128) :
    broadcastTo S1024x128 (shapeCast S1x128 (shapeCast S128 v shapeCasts_S1x128_S128) shapeCasts_S128_S1x128) broadcasts_S1x128_S1024x128 (ix2 p q)
      = v (ix2 (0 : Fin 1) q) := by
  rw [shapeCast_shapeCast]
  exact broadcastTo_1b_ab_apply v broadcasts_S1x128_S1024x128 p q

/-- The shared zero accumulator. -/
abbrev zacc : FVec Ideal S1024x128 .f32 := constant S1024x128 .f32 0x00000000#32

/-- One gate's pre-activation as the body computes it. -/
def gateVec (l0 l1 l2 : FVec Ideal S1024x2048 .bf16) (r0 r1 r2 : FVec Ideal S2048x128 .bf16) (b : FVec Ideal S1x128 .f32) :
    FVec Ideal S1024x128 .f32 :=
  addf (addf (addf (matmul D none l0 r0 zacc) (matmul D none l1 r1 zacc)) (matmul D none l2 r2 zacc))
    (broadcastTo S1024x128 (shapeCast S1x128 (shapeCast S128 b shapeCasts_S1x128_S128) shapeCasts_S128_S1x128) broadcasts_S1x128_S1024x128)

theorem gateVec_ix2 (l0 l1 l2 : FVec Ideal S1024x2048 .bf16) (r0 r1 r2 : FVec Ideal S2048x128 .bf16) (b : FVec Ideal S1x128 .f32)
    (p : Fin 1024) (q : Fin 128) :
    gateVec l0 l1 l2 r0 r1 r2 b (ix2 p q)
      = ((∑ k : Fin 2048, l0 (ix2 p k) * r0 (ix2 k q)) + (∑ k : Fin 2048, l1 (ix2 p k) * r1 (ix2 k q))
          + ∑ k : Fin 2048, l2 (ix2 p k) * r2 (ix2 k q)) + b (ix2 (0 : Fin 1) q) := by
  unfold gateVec
  rw [addf_apply, addf_apply, addf_apply, matmul_ix2, matmul_ix2, matmul_ix2, bias_ix2]

/-- The hard sigmoid and the cell step on vectors, as the body spells them. -/
def hsVec (a : FVec Ideal S1024x128 .f32) : FVec Ideal S1024x128 .f32 :=
  minimumf (broadcast S1024x128 (Scalar.ofBits .f32 0x3F800000#32))
    (maximumf (broadcast S1024x128 (Scalar.ofBits .f32 0x00000000#32))
      (addf (mulf (broadcast S1024x128 (Scalar.ofBits .f32 0x3E4CCCCD#32)) a) (broadcast S1024x128 (Scalar.ofBits .f32 0x3F000000#32))))

def cellVec (a0 a1 a2 a3 c : FVec Ideal S1024x128 .f32) : FVec Ideal S1024x128 .f32 :=
  mulf (hsVec a3) (tanh (addf (mulf (hsVec a1) c) (mulf (hsVec a0) (tanh a2))))

theorem cellVec_apply (a0 a1 a2 a3 c : FVec Ideal S1024x128 .f32) (i : S1024x128.Idx) :
    cellVec a0 a1 a2 a3 c i = Cert.Cell.step (a0 i) (a1 i) (a2 i) (a3 i) (c i) := rfl

theorem hz2 : (![0, 0] : Fin 2 → Nat) = fun _ => 0 := funext fun a => by fin_cases a <;> rfl

/-- What the body leaves in the output block, as the cell step of four gate vectors. -/
theorem out_eq (x0 x1 x2 : Vec Ideal S1024x2048 .bf16) (x3 : Vec Ideal S1024x128 .f32) (x4 x5 x6 : Vec Ideal S2048x4x128 .bf16) (x7 : Vec Ideal S4x128 .f32) :
    out0_8 x0 x1 x2 x3 x4 x5 x6 x7
      = cellVec
          (gateVec (k0_pay1 (View.ld x0 r0_0)) (k0_pay2 (View.ld x1 r0_0)) (k0_pay3 (View.ld x2 r0_0))
            (shapeCast S2048x128 (View.ld x4 r0_1) shapeCasts_S2048x1x128_S2048x128) (shapeCast S2048x128 (View.ld x5 r0_1) shapeCasts_S2048x1x128_S2048x128) (shapeCast S2048x128 (View.ld x6 r0_1) shapeCasts_S2048x1x128_S2048x128) (View.ld x7 r0_2))
          (gateVec (k0_pay1 (View.ld x0 r0_0)) (k0_pay2 (View.ld x1 r0_0)) (k0_pay3 (View.ld x2 r0_0))
            (shapeCast S2048x128 (View.ld x4 r0_3) shapeCasts_S2048x1x128_S2048x128) (shapeCast S2048x128 (View.ld x5 r0_3) shapeCasts_S2048x1x128_S2048x128) (shapeCast S2048x128 (View.ld x6 r0_3) shapeCasts_S2048x1x128_S2048x128) (View.ld x7 r0_4))
          (gateVec (k0_pay1 (View.ld x0 r0_0)) (k0_pay2 (View.ld x1 r0_0)) (k0_pay3 (View.ld x2 r0_0))
            (shapeCast S2048x128 (View.ld x4 r0_5) shapeCasts_S2048x1x128_S2048x128) (shapeCast S2048x128 (View.ld x5 r0_5) shapeCasts_S2048x1x128_S2048x128) (shapeCast S2048x128 (View.ld x6 r0_5) shapeCasts_S2048x1x128_S2048x128) (View.ld x7 r0_6))
          (gateVec (k0_pay1 (View.ld x0 r0_0)) (k0_pay2 (View.ld x1 r0_0)) (k0_pay3 (View.ld x2 r0_0))
            (shapeCast S2048x128 (View.ld x4 r0_7) shapeCasts_S2048x1x128_S2048x128) (shapeCast S2048x128 (View.ld x5 r0_7) shapeCasts_S2048x1x128_S2048x128) (shapeCast S2048x128 (View.ld x6 r0_7) shapeCasts_S2048x1x128_S2048x128) (View.ld x7 r0_8))
          (View.ld x3 r0_9) := by
  unfold out0_8
  rw [View.canon_unit_zero hz2]
  rfl

/-! ## Where a load through each of the body's rectangles reads its block

The activations and the cell-state block are loaded whole; gate `g`'s slab of a weight block is the rectangle at
offset `g` on the gate axis, one thick; gate `g`'s bias row is row `g` of the bias block. -/

theorem idx_act (p : Fin 1024) (k : Fin 2048) : r0_0.idx (ix2 p k) = ix2 p k :=
  funext fun a => Fin.ext (by
    match a with
    | ⟨0, _⟩ => show 0 + 1 * p.val = p.val; omega
    | ⟨1, _⟩ => show 0 + 1 * k.val = k.val; omega)
theorem idx_state (p : Fin 1024) (q : Fin 128) : r0_9.idx (ix2 p q) = ix2 p q :=
  funext fun a => Fin.ext (by
    match a with
    | ⟨0, _⟩ => show 0 + 1 * p.val = p.val; omega
    | ⟨1, _⟩ => show 0 + 1 * q.val = q.val; omega)
theorem idx_w0 (k : Fin 2048) (q : Fin 128) : r0_1.idx (ix3 k (0 : Fin 1) q) = ix3 k (0 : Fin 4) q :=
  funext fun a => Fin.ext (by
    match a with
    | ⟨0, _⟩ => show 0 + 1 * k.val = k.val; omega
    | ⟨1, _⟩ => rfl
    | ⟨2, _⟩ => show 0 + 1 * q.val = q.val; omega)
theorem idx_w1 (k : Fin 2048) (q : Fin 128) : r0_3.idx (ix3 k (0 : Fin 1) q) = ix3 k (1 : Fin 4) q :=
  funext fun a => Fin.ext (by
    match a with
    | ⟨0, _⟩ => show 0 + 1 * k.val = k.val; omega
    | ⟨1, _⟩ => rfl
    | ⟨2, _⟩ => show 0 + 1 * q.val = q.val; omega)
theorem idx_w2 (k : Fin 2048) (q : Fin 128) : r0_5.idx (ix3 k (0 : Fin 1) q) = ix3 k (2 : Fin 4) q :=
  funext fun a => Fin.ext (by
    match a with
    | ⟨0, _⟩ => show 0 + 1 * k.val = k.val; omega
    | ⟨1, _⟩ => rfl
    | ⟨2, _⟩ => show 0 + 1 * q.val = q.val; omega)
theorem idx_w3 (k : Fin 2048) (q : Fin 128) : r0_7.idx (ix3 k (0 : Fin 1) q) = ix3 k (3 : Fin 4) q :=
  funext fun a => Fin.ext (by
    match a with
    | ⟨0, _⟩ => show 0 + 1 * k.val = k.val; omega
    | ⟨1, _⟩ => rfl
    | ⟨2, _⟩ => show 0 + 1 * q.val = q.val; omega)
theorem idx_b0 (q : Fin 128) : r0_2.idx (ix2 (0 : Fin 1) q) = ix2 (0 : Fin 4) q :=
  funext fun a => Fin.ext (by
    match a with
    | ⟨0, _⟩ => rfl
    | ⟨1, _⟩ => show 0 + 1 * q.val = q.val; omega)
theorem idx_b1 (q : Fin 128) : r0_4.idx (ix2 (0 : Fin 1) q) = ix2 (1 : Fin 4) q :=
  funext fun a => Fin.ext (by
    match a with
    | ⟨0, _⟩ => rfl
    | ⟨1, _⟩ => show 0 + 1 * q.val = q.val; omega)
theorem idx_b2 (q : Fin 128) : r0_6.idx (ix2 (0 : Fin 1) q) = ix2 (2 : Fin 4) q :=
  funext fun a => Fin.ext (by
    match a with
    | ⟨0, _⟩ => rfl
    | ⟨1, _⟩ => show 0 + 1 * q.val = q.val; omega)
theorem idx_b3 (q : Fin 128) : r0_8.idx (ix2 (0 : Fin 1) q) = ix2 (3 : Fin 4) q :=
  funext fun a => Fin.ext (by
    match a with
    | ⟨0, _⟩ => rfl
    | ⟨1, _⟩ => show 0 + 1 * q.val = q.val; omega)

/-! ## The output block at an index, from the input blocks at indices -/

/-- Gate `g`'s pre-activation at row `p`, lane `q` of the block, from the input blocks. -/
def blockPre (x0 x1 x2 : FVec Ideal S1024x2048 .bf16) (x4 x5 x6 : FVec Ideal S2048x4x128 .bf16) (x7 : FVec Ideal S4x128 .f32)
    (g : Fin 4) (p : Fin 1024) (q : Fin 128) : EReal :=
  ((∑ k : Fin 2048, x0 (ix2 p k) * x4 (ix3 k g q)) + (∑ k : Fin 2048, x1 (ix2 p k) * x5 (ix3 k g q))
    + ∑ k : Fin 2048, x2 (ix2 p k) * x6 (ix3 k g q)) + x7 (ix2 g q)

theorem out_ix2 (x0 x1 x2 : FVec Ideal S1024x2048 .bf16) (x3 : FVec Ideal S1024x128 .f32) (x4 x5 x6 : FVec Ideal S2048x4x128 .bf16)
    (x7 : FVec Ideal S4x128 .f32) (p : Fin 1024) (q : Fin 128) :
    out0_8 (F := Ideal) x0 x1 x2 x3 x4 x5 x6 x7 (ix2 p q)
      = Cert.Cell.step (blockPre x0 x1 x2 x4 x5 x6 x7 0 p q) (blockPre x0 x1 x2 x4 x5 x6 x7 1 p q)
          (blockPre x0 x1 x2 x4 x5 x6 x7 2 p q) (blockPre x0 x1 x2 x4 x5 x6 x7 3 p q) (x3 (ix2 p q)) := by
  rw [out_eq, cellVec_apply, gateVec_ix2, gateVec_ix2, gateVec_ix2, gateVec_ix2]
  unfold blockPre k0_pay1 k0_pay2 k0_pay3
  simp only [slab_ix2, shapeCast_self, View.ld, idx_act, idx_state, idx_w0, idx_w1, idx_w2, idx_w3, idx_b0, idx_b1, idx_b2, idx_b3]

/-- The same as a function of the block index. -/
theorem out_fun (x0 x1 x2 : FVec Ideal S1024x2048 .bf16) (x3 : FVec Ideal S1024x128 .f32) (x4 x5 x6 : FVec Ideal S2048x4x128 .bf16)
    (x7 : FVec Ideal S4x128 .f32) :
    out0_8 (F := Ideal) x0 x1 x2 x3 x4 x5 x6 x7
      = fun y : S1024x128.Idx => Cert.Cell.step (blockPre x0 x1 x2 x4 x5 x6 x7 0 (y 0) (y 1)) (blockPre x0 x1 x2 x4 x5 x6 x7 1 (y 0) (y 1))
          (blockPre x0 x1 x2 x4 x5 x6 x7 2 (y 0) (y 1)) (blockPre x0 x1 x2 x4 x5 x6 x7 3 (y 0) (y 1)) (x3 y) := by
  funext y
  obtain ⟨p, q, rfl⟩ : ∃ (p : Fin 1024) (q : Fin 128), y = ix2 p q := ⟨y 0, y 1, eq_ix2 y⟩
  exact out_ix2 x0 x1 x2 x3 x4 x5 x6 x7 p q

end Cert.KernelIdeal.Body

end
-- ==== Proof.KernelBlocks.lean ====
/-
  From the kernel's 64 tiles to the whole result array.

  The grid is 4 × 16: point (i, j) computes rows 1024·i … 1024·i + 1023 and units 128·j … 128·j + 127 of the result.
  Before the region the program changes the format of x, h, z and of the three weight arrays (the identity on the
  extended reals), views each weight array [2048, 8192] as [2048, 4, 2048] — entry (k, g, u) is entry (k, 2048·g + u) —
  and the bias [8192] as [4, 2048] — entry (g, u) is entry 2048·g + u. At point (i, j) the activation blocks are rows
  1024·i … of the arrays with all their columns, the weight blocks all rows and all four gates at units 128·j …, the
  bias block all four gates at units 128·j …, the cell-state block the result's own tile. So entry (p, q) of a gate's
  pre-activation on the blocks is the array's pre-activation at row 1024·i + p and fused column 2048·g + 128·j + q
  (`blockPre_eq`), point (i, j) writes back its tile of the new hidden state (`flushed_eq`), every entry lies in the tile
  of (row / 1024, unit / 128) (`cover`), and the array after the run is the new hidden state (`final`, `run`).
-/
import proofs.«114880_j79594333929637_2_alg».proof.Proof.Gen.KernelIdeal.Value
import proofs.«114880_j79594333929637_2_alg».proof.Proof.KernelBody
import Idealize.ShloMosaic.Lib.StableHlo.Run
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx Idealize.ShloMosaic.TcCoe
open Idealize.SL.Sem Idealize.ShloMosaic.StableHlo
open Idealize.ShloMosaic.Pipeline (Dat)

variable (m : (ℓ : Loc nD τ sig) → Buf (Elt Ideal) ℓ) (ρ : Dev nD → PrngReg)

/-! ## The arrays the region finds -/

theorem V_main_v0 (c : Dev nD) : (V m c main_v0 : S4096x2048.Idx → EReal) = (m ((c : Thread nD τ).loc main_arg0)) := by
  dsimp only [Gen.V, Gen.hostOps0]
  after_results
  rfl
theorem V_main_v1 (c : Dev nD) : (V m c main_v1 : S4096x2048.Idx → EReal) = (m ((c : Thread nD τ).loc main_arg1)) := by
  dsimp only [Gen.V, Gen.hostOps0]
  after_results
  rfl
theorem V_main_v2 (c : Dev nD) : (V m c main_v2 : S4096x2048.Idx → EReal) = (m ((c : Thread nD τ).loc main_arg3)) := by
  dsimp only [Gen.V, Gen.hostOps0]
  after_results
  rfl
theorem V_main_v4 (c : Dev nD) :
    (V m c main_v4 : S2048x4x2048.Idx → EReal) = shapeCast S2048x4x2048 (m ((c : Thread nD τ).loc main_arg4)) shapeCasts_S2048x8192_S2048x4x2048 := by
  dsimp only [Gen.V, Gen.hostOps0]
  after_results
  rfl
theorem V_main_v6 (c : Dev nD) :
    (V m c main_v6 : S2048x4x2048.Idx → EReal) = shapeCast S2048x4x2048 (m ((c : Thread nD τ).loc main_arg5)) shapeCasts_S2048x8192_S2048x4x2048 := by
  dsimp only [Gen.V, Gen.hostOps0]
  after_results
  rfl
theorem V_main_v8 (c : Dev nD) :
    (V m c main_v8 : S2048x4x2048.Idx → EReal) = shapeCast S2048x4x2048 (m ((c : Thread nD τ).loc main_arg6)) shapeCasts_S2048x8192_S2048x4x2048 := by
  dsimp only [Gen.V, Gen.hostOps0]
  after_results
  rfl
theorem V_main_v9 (c : Dev nD) :
    (V m c main_v9 : S4x2048.Idx → EReal) = shapeCast S4x2048 (m ((c : Thread nD τ).loc main_arg7)) shapeCasts_S8192_S4x2048 := by
  dsimp only [Gen.V, Gen.hostOps0]
  after_results
  rfl

/-! ## The index maps over the grid -/

theorem fact_act0 : ∀ t : Fin cfg0.N, win0_0.index t (0 : Fin 2) = win0_8.index t (0 : Fin 2) ∧ win0_0.index t (1 : Fin 2) = 0 :=
  (by decide +kernel : ∀ t : Fin grid0.N, _)
theorem fact_act1 : ∀ t : Fin cfg0.N, win0_1.index t (0 : Fin 2) = win0_8.index t (0 : Fin 2) ∧ win0_1.index t (1 : Fin 2) = 0 :=
  (by decide +kernel : ∀ t : Fin grid0.N, _)
theorem fact_act2 : ∀ t : Fin cfg0.N, win0_2.index t (0 : Fin 2) = win0_8.index t (0 : Fin 2) ∧ win0_2.index t (1 : Fin 2) = 0 :=
  (by decide +kernel : ∀ t : Fin grid0.N, _)
theorem fact_state : ∀ t : Fin cfg0.N, win0_3.index t (0 : Fin 2) = win0_8.index t (0 : Fin 2) ∧ win0_3.index t (1 : Fin 2) = win0_8.index t (1 : Fin 2) :=
  (by decide +kernel : ∀ t : Fin grid0.N, _)
theorem fact_wt4 : ∀ t : Fin cfg0.N, win0_4.index t (0 : Fin 3) = 0 ∧ win0_4.index t (1 : Fin 3) = 0
    ∧ win0_4.index t (2 : Fin 3) = win0_8.index t (1 : Fin 2) :=
  (by decide +kernel : ∀ t : Fin grid0.N, _)
theorem fact_wt5 : ∀ t : Fin cfg0.N, win0_5.index t (0 : Fin 3) = 0 ∧ win0_5.index t (1 : Fin 3) = 0
    ∧ win0_5.index t (2 : Fin 3) = win0_8.index t (1 : Fin 2) :=
  (by decide +kernel : ∀ t : Fin grid0.N, _)
theorem fact_wt6 : ∀ t : Fin cfg0.N, win0_6.index t (0 : Fin 3) = 0 ∧ win0_6.index t (1 : Fin 3) = 0
    ∧ win0_6.index t (2 : Fin 3) = win0_8.index t (1 : Fin 2) :=
  (by decide +kernel : ∀ t : Fin grid0.N, _)
theorem fact_bias : ∀ t : Fin cfg0.N, win0_7.index t (0 : Fin 2) = 0 ∧ win0_7.index t (1 : Fin 2) = win0_8.index t (1 : Fin 2) :=
  (by decide +kernel : ∀ t : Fin grid0.N, _)
theorem fact_out : ∀ t : Fin cfg0.N, win0_8.index t (0 : Fin 2) ≤ 3 ∧ win0_8.index t (1 : Fin 2) ≤ 15 :=
  (by decide +kernel : ∀ t : Fin grid0.N, _)
theorem idx_onto : ∀ (q0 : Fin 4) (q1 : Fin 16), ∃ t : Fin cfg0.N, win0_8.index t = ![q0.val, q1.val] :=
  (by decide +kernel : ∀ (q0 : Fin 4) (q1 : Fin 16), ∃ t : Fin grid0.N, win0_8.index t = ![q0.val, q1.val])

/-! ## Each input block read where the output's block says -/

theorem read_act0 (c : Dev nD) (t : Fin cfg0.N) (p : Fin 1024) (k : Fin 2048) (b : Fin 4096)
    (hb : b.val = win0_8.index t (0 : Fin 2) * 1024 + p.val) :
    iblk m c 0 t (ix2 p k) = (m ((c : Thread nD τ).loc main_arg0)) (ix2 b k) := by
  show V m c main_v0 (((cfg0.win 0).blk t).view.emb (ix2 p k)) = _
  rw [V_main_v0]
  refine congrArg _ (funext fun a => Fin.ext ?_)
  obtain ⟨e0, e1⟩ := fact_act0 t
  match a with
  | ⟨0, _⟩ => show win0_0.index t (0 : Fin 2) * 1024 + 1 * p.val = b.val; omega
  | ⟨1, _⟩ => show win0_0.index t (1 : Fin 2) * 2048 + 1 * k.val = k.val; omega
theorem read_act1 (c : Dev nD) (t : Fin cfg0.N) (p : Fin 1024) (k : Fin 2048) (b : Fin 4096)
    (hb : b.val = win0_8.index t (0 : Fin 2) * 1024 + p.val) :
    iblk m c 1 t (ix2 p k) = (m ((c : Thread nD τ).loc main_arg1)) (ix2 b k) := by
  show V m c main_v1 (((cfg0.win 1).blk t).view.emb (ix2 p k)) = _
  rw [V_main_v1]
  refine congrArg _ (funext fun a => Fin.ext ?_)
  obtain ⟨e0, e1⟩ := fact_act1 t
  match a with
  | ⟨0, _⟩ => show win0_1.index t (0 : Fin 2) * 1024 + 1 * p.val = b.val; omega
  | ⟨1, _⟩ => show win0_1.index t (1 : Fin 2) * 2048 + 1 * k.val = k.val; omega
theorem read_act2 (c : Dev nD) (t : Fin cfg0.N) (p : Fin 1024) (k : Fin 2048) (b : Fin 4096)
    (hb : b.val = win0_8.index t (0 : Fin 2) * 1024 + p.val) :
    iblk m c 2 t (ix2 p k) = (m ((c : Thread nD τ).loc main_arg3)) (ix2 b k) := by
  show V m c main_v2 (((cfg0.win 2).blk t).view.emb (ix2 p k)) = _
  rw [V_main_v2]
  refine congrArg _ (funext fun a => Fin.ext ?_)
  obtain ⟨e0, e1⟩ := fact_act2 t
  match a with
  | ⟨0, _⟩ => show win0_2.index t (0 : Fin 2) * 1024 + 1 * p.val = b.val; omega
  | ⟨1, _⟩ => show win0_2.index t (1 : Fin 2) * 2048 + 1 * k.val = k.val; omega
theorem read_wt4 (c : Dev nD) (t : Fin cfg0.N) (k : Fin 2048) (g : Fin 4) (q : Fin 128) (n : Fin 2048)
    (hn : n.val = win0_8.index t (1 : Fin 2) * 128 + q.val) :
    iblk m c 4 t (ix3 k g q) = (m ((c : Thread nD τ).loc main_arg4)) (ix2 k (Cert.Cell.gateCol g n)) := by
  show V m c main_v4 (((cfg0.win 4).blk t).view.emb (ix3 k g q)) = _
  rw [V_main_v4]
  refine shapeCast_apply _ _ _ (ix2 k (Cert.Cell.gateCol g n)) ?_
  rw [Shape.rowMajor_val_two, Shape.rowMajor_val_three]
  obtain ⟨e0, e1, e2⟩ := fact_wt4 t
  have hg : g.val < 4 := g.isLt
  show k.val * 8192 + (g.val * 2048 + n.val)
    = ((win0_4.index t (0 : Fin 3) * 2048 + 1 * k.val) * 4 + (win0_4.index t (1 : Fin 3) * 4 + 1 * g.val)) * 2048
        + (win0_4.index t (2 : Fin 3) * 128 + 1 * q.val)
  omega
theorem read_wt5 (c : Dev nD) (t : Fin cfg0.N) (k : Fin 2048) (g : Fin 4) (q : Fin 128) (n : Fin 2048)
    (hn : n.val = win0_8.index t (1 : Fin 2) * 128 + q.val) :
    iblk m c 5 t (ix3 k g q) = (m ((c : Thread nD τ).loc main_arg5)) (ix2 k (Cert.Cell.gateCol g n)) := by
  show V m c main_v6 (((cfg0.win 5).blk t).view.emb (ix3 k g q)) = _
  rw [V_main_v6]
  refine shapeCast_apply _ _ _ (ix2 k (Cert.Cell.gateCol g n)) ?_
  rw [Shape.rowMajor_val_two, Shape.rowMajor_val_three]
  obtain ⟨e0, e1, e2⟩ := fact_wt5 t
  have hg : g.val < 4 := g.isLt
  show k.val * 8192 + (g.val * 2048 + n.val)
    = ((win0_5.index t (0 : Fin 3) * 2048 + 1 * k.val) * 4 + (win0_5.index t (1 : Fin 3) * 4 + 1 * g.val)) * 2048
        + (win0_5.index t (2 : Fin 3) * 128 + 1 * q.val)
  omega
theorem read_wt6 (c : Dev nD) (t : Fin cfg0.N) (k : Fin 2048) (g : Fin 4) (q : Fin 128) (n : Fin 2048)
    (hn : n.val = win0_8.index t (1 : Fin 2) * 128 + q.val) :
    iblk m c 6 t (ix3 k g q) = (m ((c : Thread nD τ).loc main_arg6)) (ix2 k (Cert.Cell.gateCol g n)) := by
  show V m c main_v8 (((cfg0.win 6).blk t).view.emb (ix3 k g q)) = _
  rw [V_main_v8]
  refine shapeCast_apply _ _ _ (ix2 k (Cert.Cell.gateCol g n)) ?_
  rw [Shape.rowMajor_val_two, Shape.rowMajor_val_three]
  obtain ⟨e0, e1, e2⟩ := fact_wt6 t
  have hg : g.val < 4 := g.isLt
  show k.val * 8192 + (g.val * 2048 + n.val)
    = ((win0_6.index t (0 : Fin 3) * 2048 + 1 * k.val) * 4 + (win0_6.index t (1 : Fin 3) * 4 + 1 * g.val)) * 2048
        + (win0_6.index t (2 : Fin 3) * 128 + 1 * q.val)
  omega
theorem read_bias (c : Dev nD) (t : Fin cfg0.N) (g : Fin 4) (q : Fin 128) (n : Fin 2048)
    (hn : n.val = win0_8.index t (1 : Fin 2) * 128 + q.val) :
    iblk m c 7 t (ix2 g q) = (m ((c : Thread nD τ).loc main_arg7)) (ix1 (Cert.Cell.gateCol g n)) := by
  show V m c main_v9 (((cfg0.win 7).blk t).view.emb (ix2 g q)) = _
  rw [V_main_v9]
  refine shapeCast_apply _ _ _ (ix1 (Cert.Cell.gateCol g n)) ?_
  rw [Shape.rowMajor_val_one, Shape.rowMajor_val_two]
  obtain ⟨e0, e1⟩ := fact_bias t
  have hg : g.val < 4 := g.isLt
  show g.val * 2048 + n.val = (win0_7.index t (0 : Fin 2) * 4 + 1 * g.val) * 2048 + (win0_7.index t (1 : Fin 2) * 128 + 1 * q.val)
  omega

theorem read_state (c : Dev nD) (t : Fin cfg0.N) (p : Fin 1024) (q : Fin 128) (b : Fin 4096) (n : Fin 2048)
    (hb : b.val = win0_8.index t (0 : Fin 2) * 1024 + p.val) (hn : n.val = win0_8.index t (1 : Fin 2) * 128 + q.val) :
    iblk m c 3 t (ix2 p q) = (m ((c : Thread nD τ).loc main_arg2)) (ix2 b n) := by
  show V m c main_arg2 (((cfg0.win 3).blk t).view.emb (ix2 p q)) = _
  rw [V_main_arg2]
  refine congrArg _ (funext fun a => Fin.ext ?_)
  obtain ⟨e0, e1⟩ := fact_state t
  match a with
  | ⟨0, _⟩ => show win0_3.index t (0 : Fin 2) * 1024 + 1 * p.val = b.val; omega
  | ⟨1, _⟩ => show win0_3.index t (1 : Fin 2) * 128 + 1 * q.val = n.val; omega

/-! ## One gate's pre-activation on the blocks of point `t` is the array's pre-activation at the global index -/

theorem blockPre_eq (c : Dev nD) (t : Fin cfg0.N) (g : Fin 4) (p : Fin 1024) (q : Fin 128) (b : Fin 4096) (n : Fin 2048)
    (hb : b.val = win0_8.index t (0 : Fin 2) * 1024 + p.val) (hn : n.val = win0_8.index t (1 : Fin 2) * 128 + q.val) :
    Body.blockPre (iblk m c 0 t) (iblk m c 1 t) (iblk m c 2 t) (iblk m c 4 t) (iblk m c 5 t) (iblk m c 6 t) (iblk m c 7 t) g p q
      = Cert.Cell.gatePre (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) b (Cert.Cell.gateCol g n) := by
  unfold Body.blockPre Cert.Cell.gatePre
  refine congrArg₂ (· + ·) (congrArg₂ (· + ·) (congrArg₂ (· + ·) ?_ ?_) ?_) (read_bias m c t g q n hn)
  · exact Finset.sum_congr rfl fun k _ => congrArg₂ (· * ·) (read_act0 m c t p k b hb) (read_wt4 m c t k g q n hn)
  · exact Finset.sum_congr rfl fun k _ => congrArg₂ (· * ·) (read_act1 m c t p k b hb) (read_wt5 m c t k g q n hn)
  · exact Finset.sum_congr rfl fun k _ => congrArg₂ (· * ·) (read_act2 m c t p k b hb) (read_wt6 m c t k g q n hn)

/-! ## What each point writes back, the cover, and the array after the run -/

/-- The new hidden state as a function of the arrays the program was launched with. -/
def newState (c : Dev nD) : S4096x2048.Idx → EReal :=
  Cert.Cell.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Point `t` writes back block `t` of the new hidden state. -/
theorem flushed_eq (c : Dev nD) (t : Fin cfg0.N) :
    (dats m 0 c).flushed 8 t = ((cfg0.win 8).blk t).view.read (Elt Ideal) (newState m c) := by
  rw [Cert.KernelIdeal.Value.flushed8, Body.out_fun]
  funext j
  obtain ⟨f0, f1⟩ := fact_out t
  have hj0 : (j 0).val < 1024 := (j 0).isLt
  have hj1 : (j 1).val < 128 := (j 1).isLt
  let b : Fin 4096 := ⟨win0_8.index t (0 : Fin 2) * 1024 + (j 0).val, by omega⟩
  let n : Fin 2048 := ⟨win0_8.index t (1 : Fin 2) * 128 + (j 1).val, by omega⟩
  have hemb : ((cfg0.win 8).blk t).view.emb j = ix2 b n := funext fun a => Fin.ext (by
    match a with
    | ⟨0, _⟩ => show win0_8.index t (0 : Fin 2) * 1024 + 1 * (j 0).val = win0_8.index t (0 : Fin 2) * 1024 + (j 0).val; omega
    | ⟨1, _⟩ => show win0_8.index t (1 : Fin 2) * 128 + 1 * (j 1).val = win0_8.index t (1 : Fin 2) * 128 + (j 1).val; omega)
  show _ = newState m c (((cfg0.win 8).blk t).view.emb j)
  rw [hemb]
  have hj : j = ix2 (j 0) (j 1) := eq_ix2 j
  exact Cert.Cell.step_congr (blockPre_eq m c t 0 (j 0) (j 1) b n rfl rfl) (blockPre_eq m c t 1 (j 0) (j 1) b n rfl rfl)
    (blockPre_eq m c t 2 (j 0) (j 1) b n rfl rfl) (blockPre_eq m c t 3 (j 0) (j 1) b n rfl rfl)
    ((congrArg (iblk m c 3 t) hj).trans (read_state m c t (j 0) (j 1) b n rfl rfl))

/-- An index of the array is in point `t`'s block iff each coordinate is in the block's range on its axis. -/
theorem mem_blk (t : Fin cfg0.N) (i : S4096x2048.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v10).slice (win0_8.rect t)).set ↔ _
  rw [View.set_slice_whole, Rect.mem_set_unit]
  exact Iff.rfl

/-- Every entry of the array is in some point's block: row `r`, unit `u` in the block of tile `(r / 1024, u / 128)`. -/
theorem cover (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := idx_onto ⟨(i 0).val / 1024, by omega⟩ ⟨(i 1).val / 128, by omega⟩
  have q0 : win0_8.index t (0 : Fin 2) = (i 0).val / 1024 := congrFun ht 0
  have q1 : win0_8.index t (1 : Fin 2) = (i 1).val / 128 := congrFun ht 1
  refine ⟨t, flush0_8 t, ?_⟩
  rw [mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 128 ≤ (i 1).val ∧ (i 1).val < win0_8.index t (1 : Fin 2) * 128 + 128; omega

/-- After the run the output array is the new hidden state. -/
theorem final (c : Dev nD) : (dats m 0 c).arrAt 8 cfg0.N = newState m c :=
  (dats m 0 c).arrAt_eq_of_cover 8 (newState m c) (fun t _ => flushed_eq m c t) cover

/-- The kernel's run: every weakly fair execution ends with the result array at the new hidden state of the launch
    contents, the arguments unchanged. -/
theorem run : θ_run defs (onTc (τ := τ) (main (F := Ideal))) ⟨m, fun _ => 0, ρ⟩ fun r => ∀ c : Dev nD,
      r.2.mem ((c : Thread nD τ).loc main_v10) = newState m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Blocks

end
-- ==== Proof.ReferenceIsCell.lean ====
/-
  The reference, read entry by entry, is the cell function.

  Its three `dot_general`s each read, at row b and fused column col, the sum over k of the activation's (b, k) entry times
  the weight's (k, col) entry; they are added in the order (x·K + h·R) + z·L; the bias vector, broadcast down the rows,
  adds its entry at col. The four slices of width 2048 of that sum read unit n of gate g at fused column 2048·g + n.
  The clip the reference calls is `min hi (max lo y)` with lo = 0 and hi = 1, so each gate is the hard sigmoid of its
  slice, and the remaining operations are the cell step entry by entry.
-/
import proofs.«114880_j79594333929637_2_alg».proof.Proof.Gen.ReferenceIdeal.Read
import proofs.«114880_j79594333929637_2_alg».proof.Proof.CellSpec

noncomputable section

namespace Cert.ReferenceIdeal.RefValue

open Cert.ReferenceIdeal Cert.ReferenceIdeal.Read Idealize.ShloMosaic Idealize.ShloMosaic.ValueIdx Idealize.ShloMosaic.TcCoe

/-! ## The operations' index functions at `(b, col)` and `(b, n)` -/

theorem lrow0 (b : Fin 4096) (col : Fin 8192) (k : Fin 2048) : lidx_main_v0 (ix2 b col) k = ix2 b k :=
  funext fun a => Fin.ext (by match a with | ⟨0, _⟩ => rfl | ⟨1, _⟩ => rfl)
theorem lrow1 (b : Fin 4096) (col : Fin 8192) (k : Fin 2048) : lidx_main_v1 (ix2 b col) k = ix2 b k :=
  funext fun a => Fin.ext (by match a with | ⟨0, _⟩ => rfl | ⟨1, _⟩ => rfl)
theorem lrow3 (b : Fin 4096) (col : Fin 8192) (k : Fin 2048) : lidx_main_v3 (ix2 b col) k = ix2 b k :=
  funext fun a => Fin.ext (by match a with | ⟨0, _⟩ => rfl | ⟨1, _⟩ => rfl)
theorem rcol0 (b : Fin 4096) (col : Fin 8192) (k : Fin 2048) : ridx_main_v0 (ix2 b col) k = ix2 k col :=
  funext fun a => Fin.ext (by match a with | ⟨0, _⟩ => rfl | ⟨1, _⟩ => rfl)
theorem rcol1 (b : Fin 4096) (col : Fin 8192) (k : Fin 2048) : ridx_main_v1 (ix2 b col) k = ix2 k col :=
  funext fun a => Fin.ext (by match a with | ⟨0, _⟩ => rfl | ⟨1, _⟩ => rfl)
theorem rcol3 (b : Fin 4096) (col : Fin 8192) (k : Fin 2048) : ridx_main_v3 (ix2 b col) k = ix2 k col :=
  funext fun a => Fin.ext (by match a with | ⟨0, _⟩ => rfl | ⟨1, _⟩ => rfl)
theorem bias_col (b : Fin 4096) (col : Fin 8192) : idx_main_v5 (idx_main_v6 (ix2 b col)) = ix1 col :=
  funext fun a => Fin.ext (by match a with | ⟨0, _⟩ => rfl)
theorem slice0 (b : Fin 4096) (n : Fin 2048) : idx_main_v8 (ix2 b n) = ix2 b (Cert.Cell.gateCol 0 n) :=
  funext fun a => Fin.ext (by
    match a with
    | ⟨0, _⟩ => rfl
    | ⟨1, _⟩ => show n.val = 0 * 2048 + n.val; omega)
theorem slice1 (b : Fin 4096) (n : Fin 2048) : idx_main_v9 (ix2 b n) = ix2 b (Cert.Cell.gateCol 1 n) :=
  funext fun a => Fin.ext (by
    match a with
    | ⟨0, _⟩ => rfl
    | ⟨1, _⟩ => show 2048 + n.val = 1 * 2048 + n.val; omega)
theorem slice2 (b : Fin 4096) (n : Fin 2048) : idx_main_v10 (ix2 b n) = ix2 b (Cert.Cell.gateCol 2 n) :=
  funext fun a => Fin.ext (by
    match a with
    | ⟨0, _⟩ => rfl
    | ⟨1, _⟩ => show 4096 + n.val = 2 * 2048 + n.val; omega)
theorem slice3 (b : Fin 4096) (n : Fin 2048) : idx_main_v11 (ix2 b n) = ix2 b (Cert.Cell.gateCol 3 n) :=
  funext fun a => Fin.ext (by
    match a with
    | ⟨0, _⟩ => rfl
    | ⟨1, _⟩ => show 6144 + n.val = 3 * 2048 + n.val; omega)

/-! ## The fused pre-activation -/

/-- The sum of the three products and the bias, at row `b` and fused column `col`. -/
theorem pre_eq (x0 x1 x3 : (⟨S4096x2048, .f32⟩ : BufTy).Contents (Elt Ideal)) (x4 x5 x6 : (⟨S2048x8192, .f32⟩ : BufTy).Contents (Elt Ideal))
    (x7 : (⟨S8192, .f32⟩ : BufTy).Contents (Elt Ideal)) (b : Fin 4096) (col : Fin 8192) :
    val_main_v7 (F := Ideal) x0 x1 x3 x4 x5 x6 x7 (ix2 b col) = Cert.Cell.gatePre x0 x1 x3 x4 x5 x6 x7 b col := by
  rw [val_main_v7_apply, val_main_v4_apply, val_main_v2_apply, val_main_v0_apply, val_main_v1_apply, val_main_v3_apply,
    val_main_v6_apply, val_main_v5_apply]
  simp only [lrow0, lrow1, lrow3, rcol0, rcol1, rcol3, bias_col, Ideal.addf_def]
  rfl

/-! ## The result -/

/-- The reference's result array is the cell function of its eight arguments. -/
theorem result_eq (x0 x1 x2 x3 : (⟨S4096x2048, .f32⟩ : BufTy).Contents (Elt Ideal)) (x4 x5 x6 : (⟨S2048x8192, .f32⟩ : BufTy).Contents (Elt Ideal))
    (x7 : (⟨S8192, .f32⟩ : BufTy).Contents (Elt Ideal)) :
    val_main_v32 (F := Ideal) x0 x1 x2 x3 x4 x5 x6 x7 = Cert.Cell.cell x0 x1 x2 x3 x4 x5 x6 x7 := by
  funext i
  obtain ⟨b, n, rfl⟩ : ∃ (b : Fin 4096) (n : Fin 2048), i = ix2 b n := ⟨i 0, i 1, eq_ix2 i⟩
  rw [Cert.Cell.cell_ix2]
  simp only [val_main_v32_apply, val_main_v31_apply, val_main_v30_apply, val_main_v29_apply, val_main_v28_apply, val_main_v27_apply,
    val_main_v26_apply, val_main_v25_apply, val_main_v24_apply, val_main_v23_apply, val_main_v22_apply, val_main_v21_apply,
    val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_call0_v0_apply, val_main_call0_v1_apply, val_main_call0_v2_apply, val_main_call0_v3_apply,
    val_main_call0_v4_apply, val_main_call1_v0_apply, val_main_call1_v1_apply, val_main_call1_v2_apply, val_main_call1_v3_apply,
    val_main_call1_v4_apply, val_main_call2_v0_apply, val_main_call2_v1_apply, val_main_call2_v2_apply, val_main_call2_v3_apply,
    val_main_call2_v4_apply, val_main_cst_apply, val_main_cst_0_apply, val_main_cst_1_apply, val_main_cst_2_apply, val_main_cst_3_apply,
    val_main_cst_4_apply, val_main_cst_5_apply, val_main_cst_6_apply, val_main_cst_7_apply, val_main_cst_8_apply, val_main_cst_9_apply,
    val_main_cst_10_apply, slice0, slice1, slice2, slice3, pre_eq]
  rfl

end Cert.ReferenceIdeal.RefValue

end
-- ==== Proof.lean ====
/-
  The new hidden state of a recurrent cell with a latent input, computed by a tiled kernel and by a plain reference:
  equal as extended reals, entry by entry.

  Both programs compute, for row b and unit n, with a_g the pre-activation of gate g,

      a_g = ((Σ_k x(b,k)·K(k, 2048g+n) + Σ_k h(b,k)·R(k, 2048g+n)) + Σ_k z(b,k)·L(k, 2048g+n)) + bias(2048g+n),
      out = σ(a_3) · tanh (σ(a_1) · c(b,n) + σ(a_0) · tanh a_2),       σ(y) = min 1 (max 0 (0.2·y + 0.5))

  (Proof/CellSpec.lean). The reference forms the whole 4096 × 8192 pre-activation and slices it into four gates
  (Proof/ReferenceIsCell.lean). The kernel changes the format of x, h, z and the weights (the identity on the extended
  reals), views each weight array as [2048, 4, 2048], and at each of 4 × 16 grid points computes a 1024 × 128 tile of the
  result from 1024 rows of the activations and 128 units of every gate (Proof/KernelBody.lean: one point;
  Proof/KernelBlocks.lean: the tiles' entries are the array's, and the tiles cover it). The two sides spell the same
  sums in the same order, so no law of the extended reals beyond reading each operation at an index is needed, and the
  precondition is not used.

  The frames are the generated ones; the reference's is its generated run with the result dropped. The idealized
  kernel is the kernel's own text read on the extended reals: nothing was rewritten, so `preserves` asks nothing.
-/
import proofs.«114880_j79594333929637_2_alg».proof.Defs
import proofs.«114880_j79594333929637_2_alg».proof.Proof.Gen.Kernel
import proofs.«114880_j79594333929637_2_alg».proof.Proof.Gen.Kernel.Frame
import proofs.«114880_j79594333929637_2_alg».proof.Proof.Gen.KernelIdeal
import proofs.«114880_j79594333929637_2_alg».proof.Proof.Gen.KernelIdeal.Frame
import proofs.«114880_j79594333929637_2_alg».proof.Proof.Gen.KernelIdeal.Value
import proofs.«114880_j79594333929637_2_alg».proof.Proof.Gen.ReferenceIdeal
import proofs.«114880_j79594333929637_2_alg».proof.Proof.Gen.ReferenceIdeal.Run
import proofs.«114880_j79594333929637_2_alg».proof.Proof.Gen.ReferenceIdeal.Read
import proofs.«114880_j79594333929637_2_alg».proof.Proof.Gen.Pre_finite_inputs
import proofs.«114880_j79594333929637_2_alg».proof.Proof.CellSpec
import proofs.«114880_j79594333929637_2_alg».proof.Proof.KernelBody
import proofs.«114880_j79594333929637_2_alg».proof.Proof.KernelBlocks
import proofs.«114880_j79594333929637_2_alg».proof.Proof.ReferenceIsCell
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at the cell function of the launch contents, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Blocks.newState m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
